-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v11_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v11_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part5 {F : FTy → Type} [FloatOps F] (main_arg18 : FVec F S1024 .f32) (main_v83 : IVec S_ 1) (main_v84 : FVec F S1024x1024 .f32) (main_cst_32 : FVec F S_ .f32) : IVec S_ 1 :=
  let main_v85 : FVec F S1024x1024 .f32 := broadcastInDim S1024x1024 ![] bcast_S_S1024x1024 main_cst_32
  let main_v86 : IVec S1024x1024 1 := cmpf .olt main_v84 main_v85
  let main_c_33 : IVec S_ 1 := constantI S_ 1 1#1
  let main_v87 : IVec S_ 1 := (fun x v => Host.reduce IntOp.andi x v reducesTo_S1024x1024_S_d0_1 h_S_) main_v86 main_c_33
  let main_v88 : IVec S_ 1 := andi main_v83 main_v87
  let main_v89 : FVec F S1024 .f32 := Host.absf main_arg18
  let main_cst_34 : FVec F S_ .f32 := constant S_ .f32 0x7F800000#32
  let main_v90 : FVec F S1024 .f32 := broadcastInDim S1024 ![] bcast_S_S1024 main_cst_34
  let main_v91 : IVec S1024 1 := cmpf .olt main_v89 main_v90
  let main_c_35 : IVec S_ 1 := constantI S_ 1 1#1
  let main_v92 : IVec S_ 1 := (fun x v => Host.reduce IntOp.andi x v reducesTo_S1024_S_d0 h_S_) main_v91 main_c_35
  let main_v93 : IVec S_ 1 := andi main_v88 main_v92
  main_v93

def fn_part4 {F : FTy → Type} [FloatOps F] (main_arg14 : FVec F S1024 .f32) (main_arg15 : FVec F S1024x1024 .f32) (main_arg16 : FVec F S1024 .f32) (main_arg17 : FVec F S1024x1024 .f32) (main_arg18 : FVec F S1024 .f32) (main_v63 : IVec S_ 1) (main_v67 : IVec S_ 1) : IVec S_ 1 :=
  let main_v68 : IVec S_ 1 := andi main_v63 main_v67
  let main_v69 : FVec F S1024 .f32 := Host.absf main_arg14
  let main_cst_26 : FVec F S_ .f32 := constant S_ .f32 0x7F800000#32
  let main_v70 : FVec F S1024 .f32 := broadcastInDim S1024 ![] bcast_S_S1024 main_cst_26
  let main_v71 : IVec S1024 1 := cmpf .olt main_v69 main_v70
  let main_c_27 : IVec S_ 1 := constantI S_ 1 1#1
  let main_v72 : IVec S_ 1 := (fun x v => Host.reduce IntOp.andi x v reducesTo_S1024_S_d0 h_S_) main_v71 main_c_27
  let main_v73 : IVec S_ 1 := andi main_v68 main_v72
  let main_v74 : FVec F S1024x1024 .f32 := Host.absf main_arg15
  let main_cst_28 : FVec F S_ .f32 := constant S_ .f32 0x7F800000#32
  let main_v75 : FVec F S1024x1024 .f32 := broadcastInDim S1024x1024 ![] bcast_S_S1024x1024 main_cst_28
  let main_v76 : IVec S1024x1024 1 := cmpf .olt main_v74 main_v75
  let main_c_29 : IVec S_ 1 := constantI S_ 1 1#1
  let main_v77 : IVec S_ 1 := (fun x v => Host.reduce IntOp.andi x v reducesTo_S1024x1024_S_d0_1 h_S_) main_v76 main_c_29
  let main_v78 : IVec S_ 1 := andi main_v73 main_v77
  let main_v79 : FVec F S1024 .f32 := Host.absf main_arg16
  let main_cst_30 : FVec F S_ .f32 := constant S_ .f32 0x7F800000#32
  let main_v80 : FVec F S1024 .f32 := broadcastInDim S1024 ![] bcast_S_S1024 main_cst_30
  let main_v81 : IVec S1024 1 := cmpf .olt main_v79 main_v80
  let main_c_31 : IVec S_ 1 := constantI S_ 1 1#1
  let main_v82 : IVec S_ 1 := (fun x v => Host.reduce IntOp.andi x v reducesTo_S1024_S_d0 h_S_) main_v81 main_c_31
  let main_v83 : IVec S_ 1 := andi main_v78 main_v82
  let main_v84 : FVec F S1024x1024 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024x1024 .f32 := Host.absf main_arg11
  let main_cst_20 : FVec F S_ .f32 := constant S_ .f32 0x7F800000#32
  let main_v55 : FVec F S1024x1024 .f32 := broadcastInDim S1024x1024 ![] bcast_S_S1024x1024 main_cst_20
  let main_v56 : IVec S1024x1024 1 := cmpf .olt main_v54 main_v55
  let main_c_21 : IVec S_ 1 := constantI S_ 1 1#1
  let main_v57 : IVec S_ 1 := (fun x v => Host.reduce IntOp.andi x v reducesTo_S1024x1024_S_d0_1 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  let main_v64 : FVec F S1024x1024 .f32 := Host.absf main_arg13
  let main_cst_24 : FVec F S_ .f32 := constant S_ .f32 0x7F800000#32
  let main_v65 : FVec F S1024x1024 .f32 := broadcastInDim S1024x1024 ![] bcast_S_S1024x1024 main_cst_24
  let main_v66 : IVec S1024x1024 1 := cmpf .olt main_v64 main_v65
  let main_c_25 : IVec S_ 1 := constantI S_ 1 1#1
  let main_v67 : IVec S_ 1 := (fun x v => Host.reduce IntOp.andi x v reducesTo_S1024x1024_S_d0_1 h_S_) main_v66 main_c_25
  fn_part4 (F := F) main_arg14 main_arg15 main_arg16 main_arg17 main_arg18 main_v63 main_v67

def fn_part2 {F : FTy → Type} [FloatOps F] (main_arg7 : FVec F S1024x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_arg13 main_arg14 main_arg15 main_arg16 main_arg17 main_arg18 main_v48 main_v49 main_v50

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S8192x1024 .f32) (main_arg1 : FVec F S8192x1024 .f32) (main_arg2 : FVec F S8192x1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S8192x1024 : Shape := ⟨2, ![8192, 1024]⟩
abbrev S1024x1024 : Shape := ⟨2, ![1024, 1024]⟩
abbrev S1024 : Shape := ⟨1, ![1024]⟩
abbrev S4096x1024 : Shape := ⟨2, ![4096, 1024]⟩
abbrev S4096 : Shape := ⟨1, ![4096]⟩
abbrev S1x4096 : Shape := ⟨2, ![1, 4096]⟩
abbrev S1024x4096 : Shape := ⟨2, ![1024, 4096]⟩
abbrev S2048x4096 : Shape := ⟨2, ![2048, 4096]⟩
abbrev S256x1024 : Shape := ⟨2, ![256, 1024]⟩
abbrev S256x2048 : Shape := ⟨2, ![256, 2048]⟩
abbrev S256x4096 : Shape := ⟨2, ![256, 4096]⟩

abbrev nBuf : Space → Nat
  | .hbm => 32
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024, .f32⟩
  | .hbm, ⟨13, _⟩ => ⟨S1024x1024, .f32⟩
  | .hbm, ⟨14, _⟩ => ⟨S1024, .f32⟩
  | .hbm, ⟨15, _⟩ => ⟨S1024x1024, .f32⟩
  | .hbm, ⟨16, _⟩ => ⟨S1024, .f32⟩
  | .hbm, ⟨17, _⟩ => ⟨S1024x1024, .f32⟩
  | .hbm, ⟨18, _⟩ => ⟨S1024, .f32⟩
  | .hbm, ⟨19, _⟩ => ⟨S4096x1024, .f32⟩
  | .hbm, ⟨20, _⟩ => ⟨S4096x1024, .f32⟩
  | .hbm, ⟨21, _⟩ => ⟨S4096, .f32⟩
  | .hbm, ⟨22, _⟩ => ⟨S4096, .f32⟩
  | .hbm, ⟨23, _⟩ => ⟨S4096, .f32⟩
  | .hbm, ⟨24, _⟩ => ⟨S1x4096, .f32⟩
  | .hbm, ⟨25, _⟩ => ⟨S1024x4096, .f32⟩
  | .hbm, ⟨26, _⟩ => ⟨S1024x4096, .bf16⟩
  | .hbm, ⟨27, _⟩ => ⟨S1024x4096, .f32⟩
  | .hbm, ⟨28, _⟩ => ⟨S1024x4096, .bf16⟩
  | .hbm, ⟨29, _⟩ => ⟨S2048x4096, .bf16⟩
  | .hbm, ⟨30, _⟩ => ⟨S8192x1024, .f32⟩
  | .hbm, ⟨31, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S2048x4096, .bf16⟩
  | .local _ .vmem, ⟨7, _⟩ => ⟨S1x4096, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11_0 : Ref sig .tc := ⟨.hbm, 30, rfl⟩
abbrev main_v11_1 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  concatenates_S1024x1024_S1024x1024_S1024x1024_S1024x1024_S4096x1024_d0 : Shape.Concatenates [S1024x1024, S1024x1024, S1024x1024, S1024x1024] S4096x1024 0
  concatenates_S1024_S1024_S1024_S1024_S4096_d0 : Shape.Concatenates [S1024, S1024, S1024, S1024] S4096 0
  shapeCasts_S4096_S1x4096 : S4096.ShapeCasts S1x4096
  transposes_S4096x1024_S1024x4096_1_0 : S4096x1024.Transposes [1, 0] S1024x4096
  bitsLt_bf16_f32 : FTy.bits .bf16 < FTy.bits .f32
  concatenates_S1024x4096_S1024x4096_S2048x4096_d0 : Shape.Concatenates [S1024x4096, S1024x4096] S2048x4096 0
  inb_S256x1024_S256x1024_0_0 : ∀ a, (![0, 0] : Fin 2 → Nat) a + S256x1024.size a ≤ S256x1024.size a
  h_S256x1024 : 0 < S256x1024.numel
  concatenates_S256x1024_S256x1024_S256x2048_d1 : Shape.Concatenates [S256x1024, S256x1024] S256x2048 1
  inb_S2048x4096_S2048x4096_0_0 : ∀ a, (![0, 0] : Fin 2 → Nat) a + S2048x4096.size a ≤ S2048x4096.size a
  h_S2048x4096 : 0 < S2048x4096.numel
  shapeCasts_S2048x4096_S2048x4096 : S2048x4096.ShapeCasts S2048x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  slices_S256x4096_o0_0_S256x1024 : S256x4096.Slices ![0, 0] S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  dot_S256x2048_S2048x4096_S256x4096_1_0_0_1_n_n_wf : DotDims.WF S256x2048 S2048x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .f32 = 32 ∨ (Rect.block (s := S8192x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S8192x1024.size a
  hwx0_1 : ∀ i : grid0.Coords, EltTy.bits .f32 = 32 ∨ (Rect.block (s := S8192x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S8192x1024.size a
  hwx0_2 : ∀ i : grid0.Coords, EltTy.bits .f32 = 32 ∨ (Rect.block (s := S8192x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x4096.size a ≤ S2048x4096.size a
  hwx0_3 : ∀ i : grid0.Coords, EltTy.bits .bf16 = 32 ∨ (Rect.block (s := S2048x4096) S2048x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4096.size a ≤ S1x4096.size a
  hwx0_4 : ∀ i : grid0.Coords, EltTy.bits .f32 = 32 ∨ (Rect.block (s := S1x4096) S1x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S8192x1024.size a
  hwx0_5 : ∀ i : grid0.Coords, EltTy.bits .f32 = 32 ∨ (Rect.block (s := S8192x1024) S256x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S8192x1024.size a
  hwx0_6 : ∀ i : grid0.Coords, EltTy.bits .f32 = 32 ∨ (Rect.block (s := S8192x1024) S256x1024.size (cc0_transform_6 i) (hinb0_6 i)).WholeWords (EltTy.packing .f32)

variable [Facts₀]

def dot_S256x2048_S2048x4096_S256x4096_1_0_0_1_n_n : DotDims S256x2048 S2048x4096 S256x4096 where
  lhsContracting := [1]
  rhsContracting := [0]
  lhsNonContracting := [0]
  rhsNonContracting := [1]
  lhsBatch := []
  rhsBatch := []
  wf := dot_S256x2048_S2048x4096_S256x4096_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S2048x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11_0) S256x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v11_1) S256x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S1024x1024 : Shape := ⟨2, ![1024, 1024]⟩
abbrev S1024 : Shape := ⟨1, ![1024]⟩
abbrev S4096x1024 : Shape := ⟨2, ![4096, 1024]⟩
abbrev S4096 : Shape := ⟨1, ![4096]⟩
abbrev S1024x4096 : Shape := ⟨2, ![1024, 4096]⟩
abbrev S8192x4096 : Shape := ⟨2, ![8192, 4096]⟩
abbrev S1x4096 : Shape := ⟨2, ![1, 4096]⟩
abbrev S_ : Shape := ⟨0, ![]⟩

abbrev nBuf : Space → Nat
  | .hbm => 68
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024, .f32⟩
  | .hbm, ⟨13, _⟩ => ⟨S1024x1024, .f32⟩
  | .hbm, ⟨14, _⟩ => ⟨S1024, .f32⟩
  | .hbm, ⟨15, _⟩ => ⟨S1024x1024, .f32⟩
  | .hbm, ⟨16, _⟩ => ⟨S1024, .f32⟩
  | .hbm, ⟨17, _⟩ => ⟨S1024x1024, .f32⟩
  | .hbm, ⟨18, _⟩ => ⟨S1024, .f32⟩
  | .hbm, ⟨19, _⟩ => ⟨S4096x1024, .f32⟩
  | .hbm, ⟨20, _⟩ => ⟨S4096x1024, .f32⟩
  | .hbm, ⟨21, _⟩ => ⟨S4096, .f32⟩
  | .hbm, ⟨22, _⟩ => ⟨S4096, .f32⟩
  | .hbm, ⟨23, _⟩ => ⟨S1024x4096, .f32⟩
  | .hbm, ⟨24, _⟩ => ⟨S8192x4096, .f32⟩
  | .hbm, ⟨25, _⟩ => ⟨S1x4096, .f32⟩
  | .hbm, ⟨26, _⟩ => ⟨S8192x4096, .f32⟩
  | .hbm, ⟨27, _⟩ => ⟨S8192x4096, .f32⟩
  | .hbm, ⟨28, _⟩ => ⟨S1024x4096, .f32⟩
  | .hbm, ⟨29, _⟩ => ⟨S8192x4096, .f32⟩
  | .hbm, ⟨30, _⟩ => ⟨S8192x4096, .f32⟩
  | .hbm, ⟨31, _⟩ => ⟨S1x4096, .f32⟩
  | .hbm, ⟨32, _⟩ => ⟨S8192x4096, .f32⟩
  | .hbm, ⟨33, _⟩ => ⟨S8192x4096, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S_, .f32⟩
  | .hbm, ⟨49, _⟩ => ⟨S8192x1024, .f32⟩
  | .hbm, ⟨50, _⟩ => ⟨S8192x1024, .f32⟩
  | .hbm, ⟨51, _⟩ => ⟨S_, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S8192x1024, .f32⟩
  | .hbm, ⟨58, _⟩ => ⟨S8192x1024, .f32⟩
  | .hbm, ⟨59, _⟩ => ⟨S_, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst : Ref sig .tc := ⟨.hbm, 40, rfl⟩
abbrev main_v21 : Ref sig .tc := ⟨.hbm, 41, rfl⟩
abbrev main_v22 : Ref sig .tc := ⟨.hbm, 42, rfl⟩
abbrev main_cst_0 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_1 : Ref sig .tc := ⟨.hbm, 48, rfl⟩
abbrev main_v27 : Ref sig .tc := ⟨.hbm, 49, rfl⟩
abbrev main_v28 : Ref sig .tc := ⟨.hbm, 50, rfl⟩
abbrev main_cst_2 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_3 : Ref sig .tc := ⟨.hbm, 56, rfl⟩
abbrev main_v33 : Ref sig .tc := ⟨.hbm, 57, rfl⟩
abbrev main_v34 : Ref sig .tc := ⟨.hbm, 58, rfl⟩
abbrev main_cst_4 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩

abbrev nD : Nat := 1
abbrev τ : Topo := Topo.v7x

variable {F : FTy → Type} [FloatOps F]

class Facts₀ : Prop where
  concatenates_S1024x1024_S1024x1024_S1024x1024_S1024x1024_S4096x1024_d0 : Shape.Concatenates [S1024x1024, S1024x1024, S1024x1024, S1024x1024] S4096x1024 0
  concatenates_S1024_S1024_S1024_S1024_S4096_d0 : Shape.Concatenates [S1024, S1024, S1024, S1024] S4096 0
  transposes_S4096x1024_S1024x4096_1_0 : S4096x1024.Transposes [1, 0] S1024x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  slices_S8192x4096_S8192x1024_0_0 : S8192x4096.Slices ![0, 0] S8192x1024
  slices_S8192x4096_S8192x1024_0_1024 : S8192x4096.Slices ![0, 1024] S8192x1024
  slices_S8192x4096_S8192x1024_0_2048 : S8192x4096.Slices ![0, 2048] S8192x1024
  slices_S8192x4096_S8192x1024_0_3072 : S8192x4096.Slices ![0, 3072] S8192x1024
  bcast_S_S8192x1024 : S_.BroadcastsInDim S8192x1024 (![] : Fin 0 → Fin S8192x1024.rank)
  dot_S8192x1024_S1024x4096_S8192x4096_1_0_0_1_n_n_wf : DotDims.WF S8192x1024 S1024x4096 S8192x4096 [1] [0] [0] [1] [] []

variable [Facts₀]

def dot_S8192x1024_S1024x4096_S8192x4096_1_0_0_1_n_n : DotDims S8192x1024 S1024x4096 S8192x4096 where
  lhsContracting := [1]
  rhsContracting := [0]
  lhsNonContracting := [0]
  rhsNonContracting := [1]
  lhsBatch := []
  rhsBatch := []
  wf := dot_S8192x1024_S1024x4096_S8192x4096_1_0_0_1_n_n_wf

class Facts : Prop extends Facts₀ where

variable [Facts]
-- ==== Proof.KernelFrame.lean ====
import proofs.«118844_j80350248173766_2_alg».proof.Proof.Gen.Kernel.Launch
import proofs.«118844_j80350248173766_2_alg».proof.Proof.Gen.Kernel.Skeleton
import proofs.«118844_j80350248173766_2_alg».proof.Proof.Gen.Kernel.Points
import Idealize.ShloMosaic.Lib.Pipeline.FrameBody
import Idealize.ShloMosaic.Lib.Ring
import Idealize.ShloMosaic.Lib.Tactic

/-!
# The frame of the fused LSTM cell program

The program is eleven host operations (the four gate weights of each side stacked, transposed, narrowed and stacked
again into one `[2048, 4096]` matrix; the two bias vectors stacked, added and reshaped to a row) followed by one
region over 32 grid points. At each point the body reads a `[256, 1024]` block of each of `x`, `h`, `c`, the
whole stacked weight and the whole bias row, and writes one `[256, 1024]` block of each result through a rectangle
covering the whole staging buffer. Hence every execution terminates, nothing faults, and the nineteen argument
arrays end as they began: the three staged ones because an input window is only read, the others because no host
operation and no window writes them. The run also names what each result array holds afterwards.
-/

set_option maxRecDepth 16384

noncomputable section

namespace Cert.Kernel.FrameProof

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to its region -/

/-- The buffers of core `c` when the region is entered: the launch contents after the eleven host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program is its host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-! No host operation writes an argument array (each writes a fresh intermediate), so the region finds every
argument as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The blocks of the windows -/

/-- The block of window `w` at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block at every point, whether the point fetches it or the
block index has not moved since it was fetched. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame from a run that names the arrays -/

/-- In a final state of such a run every argument array is as launched: a staged input is only read, and no
    window and no host operation writes the others. -/
theorem kept_of (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c)⟩

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => kept_of m dats hA r h c) h

/-! ## What the body reads and writes -/

/-- The whole `[256, 1024]` block. -/
abbrev rBlk : Rect S256x1024 := Rect.unit (s := S256x1024) ![0, 0] S256x1024.size inb_S256x1024_S256x1024_0_0
/-- The whole stacked weight. -/
abbrev rW : Rect S2048x4096 := Rect.unit (s := S2048x4096) ![0, 0] S2048x4096.size inb_S2048x4096_S2048x4096_0_0
/-- The whole bias row. -/
abbrev rB : Rect S1x4096 := Rect.unit (s := S1x4096) ![0, 0] S1x4096.size inb_S1x4096_S1x4096_0_0

/-- The block of the new hidden state the body leaves, from the blocks it read. -/
def outH (x0 x1 x2 : Vec F S256x1024 .f32) (x3 : Vec F S2048x4096 .bf16) (x4 : Vec F S1x4096 .f32) : Vec F S256x1024 .f32 :=
  View.canon [⟨rBlk, k0_pay3 (View.ld x0 rBlk) (View.ld x1 rBlk) (View.ld x3 rW) (View.ld x4 rB) (View.ld x2 rBlk)⟩]

/-- The block of the new cell state the body leaves, from the blocks it read. -/
def outC (x0 x1 x2 : Vec F S256x1024 .f32) (x3 : Vec F S2048x4096 .bf16) (x4 : Vec F S1x4096 .f32) : Vec F S256x1024 .f32 :=
  View.canon [⟨rBlk, k0_pay2 (View.ld x0 rBlk) (View.ld x1 rBlk) (View.ld x3 rW) (View.ld x4 rB) (View.ld x2 rBlk)⟩]

/-- One store through the whole block covers the buffer. -/
theorem coverBlk (p0 : Vec F S256x1024 .f32) (y : S256x1024.Idx) :
    ∃ pc ∈ ([⟨rBlk, p0⟩] : List (View.Piece (Elt F) S256x1024 .f32)), y ∈ pc.1.set :=
  View.cover_of_tiled [⟨rBlk, p0⟩] S256x1024.size (by rfl) y

/-! ## The body -/

set_option maxHeartbeats 1000000 in
/-- On whole staging buffers, the five inputs' at known contents and the two outputs' at anything, the body runs to
    its end leaving the inputs as they were and each output at the block computed from the inputs. -/
theorem sound_kernel (c : Dev nD) (E : Set ℕ) (i : grid0.Coords)
    (arg1 : Memref sig .tc .vmem S256x1024 .f32) (harg1 : arg1.IsWhole) (arg2 : Memref sig .tc .vmem S256x1024 .f32) (harg2 : arg2.IsWhole)
    (arg3 : Memref sig .tc .vmem S256x1024 .f32) (harg3 : arg3.IsWhole) (arg4 : Memref sig .tc .vmem S2048x4096 .bf16) (harg4 : arg4.IsWhole)
    (arg5 : Memref sig .tc .vmem S1x4096 .f32) (harg5 : arg5.IsWhole) (arg6 : Memref sig .tc .vmem S256x1024 .f32) (harg6 : arg6.IsWhole)
    (arg7 : Memref sig .tc .vmem S256x1024 .f32) (harg7 : arg7.IsWhole)
    (x0 x1 x2 : Vec F S256x1024 .f32) (x3 : Vec F S2048x4096 .bf16) (x4 : Vec F S1x4096 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outH x0 x1 x2 x3 x4) ∗ owns (c : Thread nD τ) arg7 fullShare (outC x0 x1 x2 x3 x4)) -∗ K ⟨⟩))
      ⊢ wp frame (wpE (defs₀ (F := F)) Variants.none c none) E (cc0__lstm_kernel i arg1 harg1 arg2 harg2 arg3 harg3 arg4 harg4 arg5 harg5 arg6 harg6 arg7 harg7) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (coverBlk _)
  iexists _; isplitr
  swap; · iexact H6
  ipureintro
  exact View.read_writes_eq_canon _ _ _ (coverBlk _)

/-! ## The proof data of the pipeline -/

/-- On core `c`: the arrays as the region finds them; after the body at point `t` each input buffer at its block and
    each output buffer at the block computed from the input blocks; nothing else owned or owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outH (iblk m c 0 t) (iblk m c 1 t) (iblk m c 2 t) (iblk m c 3 t) (iblk m c 4 t)
    | ⟨6, _⟩ => outC (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outH (iblk m c 0 t) (iblk m c 1 t) (iblk m c 2 t) (iblk m c 3 t) (iblk m c 4 t) := by dsimp only [dats]
theorem after0_6 (c : Dev nD) (t : Fin cfg0.N) : (dats m 0 c).after 6 t = outC (iblk m c 0 t) (iblk m c 1 t) (iblk m c 2 t) (iblk m c 3 t) (iblk m c 4 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates, and in every final state each array of the pipeline holds
    what its write-backs left and every other unscoped buffer what the region found. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to its end, faults nowhere, and leaves its nineteen argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  frame_of m ρ (dats m) (A_eq m) (run_main m ρ)

end Cert.Kernel.FrameProof

end
-- ==== Proof.KernelIdealFrame.lean ====
import proofs.«118844_j80350248173766_2_alg».proof.Proof.Gen.KernelIdeal.Launch
import proofs.«118844_j80350248173766_2_alg».proof.Proof.Gen.KernelIdeal.Skeleton
import proofs.«118844_j80350248173766_2_alg».proof.Proof.Gen.KernelIdeal.Points
import Idealize.ShloMosaic.Lib.Pipeline.FrameBody
import Idealize.ShloMosaic.Lib.Ring
import Idealize.ShloMosaic.Lib.Tactic

/-!
# The frame of the fused LSTM cell program

The program is eleven host operations (the four gate weights of each side stacked, transposed, narrowed and stacked
again into one `[2048, 4096]` matrix; the two bias vectors stacked, added and reshaped to a row) followed by one
region over 32 grid points. At each point the body reads a `[256, 1024]` block of each of `x`, `h`, `c`, the
whole stacked weight and the whole bias row, and writes one `[256, 1024]` block of each result through a rectangle
covering the whole staging buffer. Hence every execution terminates, nothing faults, and the nineteen argument
arrays end as they began: the three staged ones because an input window is only read, the others because no host
operation and no window writes them. The run also names what each result array holds afterwards.
-/

set_option maxRecDepth 16384

noncomputable section

namespace Cert.KernelIdeal.FrameProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to its region -/

/-- The buffers of core `c` when the region is entered: the launch contents after the eleven host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program is its host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-! No host operation writes an argument array (each writes a fresh intermediate), so the region finds every
argument as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The blocks of the windows -/

/-- The block of window `w` at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block at every point, whether the point fetches it or the
block index has not moved since it was fetched. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame from a run that names the arrays -/

/-- In a final state of such a run every argument array is as launched: a staged input is only read, and no
    window and no host operation writes the others. -/
theorem kept_of (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c)⟩

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => kept_of m dats hA r h c) h

/-! ## What the body reads and writes -/

/-- The whole `[256, 1024]` block. -/
abbrev rBlk : Rect S256x1024 := Rect.unit (s := S256x1024) ![0, 0] S256x1024.size inb_S256x1024_S256x1024_0_0
/-- The whole stacked weight. -/
abbrev rW : Rect S2048x4096 := Rect.unit (s := S2048x4096) ![0, 0] S2048x4096.size inb_S2048x4096_S2048x4096_0_0
/-- The whole bias row. -/
abbrev rB : Rect S1x4096 := Rect.unit (s := S1x4096) ![0, 0] S1x4096.size inb_S1x4096_S1x4096_0_0

/-- The block of the new hidden state the body leaves, from the blocks it read. -/
def outH (x0 x1 x2 : Vec F S256x1024 .f32) (x3 : Vec F S2048x4096 .bf16) (x4 : Vec F S1x4096 .f32) : Vec F S256x1024 .f32 :=
  View.canon [⟨rBlk, k0_pay3 (View.ld x0 rBlk) (View.ld x1 rBlk) (View.ld x3 rW) (View.ld x4 rB) (View.ld x2 rBlk)⟩]

/-- The block of the new cell state the body leaves, from the blocks it read. -/
def outC (x0 x1 x2 : Vec F S256x1024 .f32) (x3 : Vec F S2048x4096 .bf16) (x4 : Vec F S1x4096 .f32) : Vec F S256x1024 .f32 :=
  View.canon [⟨rBlk, k0_pay2 (View.ld x0 rBlk) (View.ld x1 rBlk) (View.ld x3 rW) (View.ld x4 rB) (View.ld x2 rBlk)⟩]

/-- One store through the whole block covers the buffer. -/
theorem coverBlk (p0 : Vec F S256x1024 .f32) (y : S256x1024.Idx) :
    ∃ pc ∈ ([⟨rBlk, p0⟩] : List (View.Piece (Elt F) S256x1024 .f32)), y ∈ pc.1.set :=
  View.cover_of_tiled [⟨rBlk, p0⟩] S256x1024.size (by rfl) y

/-! ## The body -/

set_option maxHeartbeats 1000000 in
/-- On whole staging buffers, the five inputs' at known contents and the two outputs' at anything, the body runs to
    its end leaving the inputs as they were and each output at the block computed from the inputs. -/
theorem sound_kernel (c : Dev nD) (E : Set ℕ) (i : grid0.Coords)
    (arg1 : Memref sig .tc .vmem S256x1024 .f32) (harg1 : arg1.IsWhole) (arg2 : Memref sig .tc .vmem S256x1024 .f32) (harg2 : arg2.IsWhole)
    (arg3 : Memref sig .tc .vmem S256x1024 .f32) (harg3 : arg3.IsWhole) (arg4 : Memref sig .tc .vmem S2048x4096 .bf16) (harg4 : arg4.IsWhole)
    (arg5 : Memref sig .tc .vmem S1x4096 .f32) (harg5 : arg5.IsWhole) (arg6 : Memref sig .tc .vmem S256x1024 .f32) (harg6 : arg6.IsWhole)
    (arg7 : Memref sig .tc .vmem S256x1024 .f32) (harg7 : arg7.IsWhole)
    (x0 x1 x2 : Vec F S256x1024 .f32) (x3 : Vec F S2048x4096 .bf16) (x4 : Vec F S1x4096 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outH x0 x1 x2 x3 x4) ∗ owns (c : Thread nD τ) arg7 fullShare (outC x0 x1 x2 x3 x4)) -∗ K ⟨⟩))
      ⊢ wp frame (wpE (defs₀ (F := F)) Variants.none c none) E (cc0__lstm_kernel i arg1 harg1 arg2 harg2 arg3 harg3 arg4 harg4 arg5 harg5 arg6 harg6 arg7 harg7) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (coverBlk _)
  iexists _; isplitr
  swap; · iexact H6
  ipureintro
  exact View.read_writes_eq_canon _ _ _ (coverBlk _)

/-! ## The proof data of the pipeline -/

/-- On core `c`: the arrays as the region finds them; after the body at point `t` each input buffer at its block and
    each output buffer at the block computed from the input blocks; nothing else owned or owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outH (iblk m c 0 t) (iblk m c 1 t) (iblk m c 2 t) (iblk m c 3 t) (iblk m c 4 t)
    | ⟨6, _⟩ => outC (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outH (iblk m c 0 t) (iblk m c 1 t) (iblk m c 2 t) (iblk m c 3 t) (iblk m c 4 t) := by dsimp only [dats]
theorem after0_6 (c : Dev nD) (t : Fin cfg0.N) : (dats m 0 c).after 6 t = outC (iblk m c 0 t) (iblk m c 1 t) (iblk m c 2 t) (iblk m c 3 t) (iblk m c 4 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates, and in every final state each array of the pipeline holds
    what its write-backs left and every other unscoped buffer what the region found. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to its end, faults nowhere, and leaves its nineteen argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  frame_of m ρ (dats m) (A_eq m) (run_main m ρ)

end Cert.KernelIdeal.FrameProof

end
-- ==== Proof.Spec.lean ====
import Idealize.ShloMosaic.PureOps.Ideal
import Idealize.ShloMosaic.Lib.ValueIdx

/-!
# One step of the LSTM cell, as a function of its argument arrays

With `x, h, c` of shape `[8192, 1024]`, the four gate weights of each side stacked into `wx, wh` of shape
`[4096, 1024]` (gate `g` in rows `1024 g … 1024 g + 1023`) and the biases stacked into `bx, bh` of length `4096`,
the pre-activation of row `p` and column `q` is

  `z p q = Σₖ x[p,k]·wx[q,k] + bx[q] + Σₖ h[p,k]·wh[q,k] + bh[q]`,

the new cell state is `σ(z[p,1024+j])·c[p,j] + σ(z[p,j])·tanh(z[p,3072+j])` and the new hidden state is
`σ(z[p,2048+j])·tanh(new cell state)`, on the extended reals, `σ` the logistic function.

A second arrangement computes the same pre-activation from ONE sum over `2048` terms: the rows of `x` and `h` laid
side by side against a `[2048, 4096]` matrix holding the transposed `wx` above the transposed `wh`, plus one row
holding `bx + bh`. The two agree because a finite sum over `2048` indices is the sum over its two halves and addition
on the extended reals is commutative and associative; no finiteness is used.
-/

noncomputable section

open scoped BigOperators

namespace LstmSpec

open Idealize.ShloMosaic Idealize.ShloMosaic.ValueIdx

/-- The shape of `x`, `h`, `c` and of the two results. -/
abbrev SA : Shape := ⟨2, ![8192, 1024]⟩
/-- The shape of a stacked weight. -/
abbrev SW : Shape := ⟨2, ![4096, 1024]⟩
/-- The shape of a stacked bias. -/
abbrev SV : Shape := ⟨1, ![4096]⟩
/-- The shape of the fused weight: the two transposed stacks, one above the other. -/
abbrev SF : Shape := ⟨2, ![2048, 4096]⟩
/-- The shape of the fused bias row. -/
abbrev SR : Shape := ⟨2, ![1, 4096]⟩

/-- Column `j` of the input gate, of the forget gate, of the output gate and of the candidate, among the `4096`
    pre-activation columns. -/
def gI (j : Fin 1024) : Fin 4096 := ⟨j.val, by omega⟩
def gF (j : Fin 1024) : Fin 4096 := ⟨1024 + j.val, by omega⟩
def gO (j : Fin 1024) : Fin 4096 := ⟨2048 + j.val, by omega⟩
def gG (j : Fin 1024) : Fin 4096 := ⟨3072 + j.val, by omega⟩

/-- The new cell state at column `j` from a row of pre-activations and the old cell state there. -/
def newC (z : Fin 4096 → EReal) (cv : EReal) (j : Fin 1024) : EReal :=
  Ideal.logistic (z (gF j)) * cv + Ideal.logistic (z (gI j)) * Ideal.tanh (z (gG j))

/-- The new hidden state at column `j`. -/
def newH (z : Fin 4096 → EReal) (cv : EReal) (j : Fin 1024) : EReal :=
  Ideal.logistic (z (gO j)) * Ideal.tanh (newC z cv j)

/-- The pre-activation, the two products and the two biases added in the order
    `((x·wxᵀ + bx) + h·whᵀ) + bh`. -/
def preact (x h : SA.Idx → EReal) (wx wh : SW.Idx → EReal) (bx bh : SV.Idx → EReal) (p : Fin 8192) (q : Fin 4096) : EReal :=
  (∑ k : Fin 1024, x (ix2 p k) * wx (ix2 q k)) + bx (ix1 q) + (∑ k : Fin 1024, h (ix2 p k) * wh (ix2 q k)) + bh (ix1 q)

/-- The new cell state, as one array. -/
def cellC (x h c : SA.Idx → EReal) (wx wh : SW.Idx → EReal) (bx bh : SV.Idx → EReal) : SA.Idx → EReal :=
  fun i => newC (preact x h wx wh bx bh (i 0)) (c i) (i 1)

/-- The new hidden state, as one array. -/
def cellH (x h c : SA.Idx → EReal) (wx wh : SW.Idx → EReal) (bx bh : SV.Idx → EReal) : SA.Idx → EReal :=
  fun i => newH (preact x h wx wh bx bh (i 0)) (c i) (i 1)

/-! ## The fused arrangement -/

/-- Index `k` of the first half, and of the second half, of the `2048` fused contraction indices. -/
def lo (k : Fin 1024) : Fin 2048 := ⟨k.val, by omega⟩
def hi (k : Fin 1024) : Fin 2048 := ⟨1024 + k.val, by omega⟩

/-- A sum over `2048` indices is the sum over its first `1024` plus the sum over its last `1024`. -/
theorem sum_halves {M : Type} [AddCommMonoid M] (f : Fin 2048 → M) :
    ∑ k : Fin 2048, f k = ∑ k : Fin 1024, f (lo k) + ∑ k : Fin 1024, f (hi k) :=
  Fin.sum_univ_add (a := 1024) (b := 1024) f

/-- The pre-activation from the fused matrix `W` and the fused bias row `B`. -/
def fused (x h : SA.Idx → EReal) (W : SF.Idx → EReal) (B : SR.Idx → EReal) (p : Fin 8192) (q : Fin 4096) : EReal :=
  (∑ k : Fin 1024, x (ix2 p k) * W (ix2 (lo k) q)) + (∑ k : Fin 1024, h (ix2 p k) * W (ix2 (hi k) q)) + B (ix2 (0 : Fin 1) q)

/-- When the fused matrix holds `wxᵀ` above `whᵀ` and the fused row holds `bx + bh`, the fused pre-activation is the
    pre-activation: `(A + C) + (b + b') = ((A + b) + C) + b'`. -/
theorem fused_eq_preact (x h : SA.Idx → EReal) (W : SF.Idx → EReal) (B : SR.Idx → EReal)
    (wx wh : SW.Idx → EReal) (bx bh : SV.Idx → EReal)
    (hWx : ∀ (k : Fin 1024) (q : Fin 4096), W (ix2 (lo k) q) = wx (ix2 q k))
    (hWh : ∀ (k : Fin 1024) (q : Fin 4096), W (ix2 (hi k) q) = wh (ix2 q k))
    (hB : ∀ q : Fin 4096, B (ix2 (0 : Fin 1) q) = bx (ix1 q) + bh (ix1 q)) (p : Fin 8192) (q : Fin 4096) :
    fused x h W B p q = preact x h wx wh bx bh p q := by
  unfold fused preact
  simp only [hWx, hWh, hB]
  rw [add_add_add_comm, ← add_assoc]

/-- The float word `0x3F800000` is the number one. -/
theorem one_bits : Ideal.ofBits .f32 0x3F800000#32 = 1 := by
  simp [Ideal.ofBits, Ideal.ieee, -EReal.coe_mul]; norm_num

end LstmSpec

end
-- ==== Proof.LibMatmulNN.lean ====
/-
  A matrix product of a row-major `M × K` block against a `K × N` block (the right operand NOT transposed:
  the left operand's axis 1 is contracted with the right operand's axis 0), accumulated into the zero block,
  read at the extended reals: entry `(p, q)` of the result is the sum over `k` of `x[p, k] · w[k, q]`.
  The matrix unit's contraction index ranges over a one-axis shape of extent `K`; it is re-indexed to `Fin K`,
  and the operand indices the dot's dimension record computes are named coordinate by coordinate.
  General in the three extents and in the operands' float formats.
-/
import Idealize.ShloMosaic.PureOps.Ideal.Laws
import Idealize.ShloMosaic.Lib.ValueIdx

noncomputable section

open scoped BigOperators

namespace LibMatmulNN

open Idealize.ShloMosaic Idealize.ShloMosaic.ValueIdx

variable (M K N : Nat)

/-- The left operand's index at output index `(p, q)` and contraction index `k` is `(p, k)`. -/
theorem lhsIdx_eq (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl _ _).trans hk

/-- The right operand's index at output index `(p, q)` and contraction index `k` is `(k, q)`. -/
theorem rhsIdx_eq (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl _ _).trans hk
  | ⟨1, _⟩ => rfl

/-- Entry `(p, q)` of `x · w` accumulated into zero is `∑ k, x[p, k] · w[k, q]` on the extended reals. -/
theorem matmul_zero_apply {φ₁ φ₂ : FTy} (prec : Option ContractPrecision)
    (x : FVec Ideal ⟨2, ![M, K]⟩ φ₁) (w : FVec Ideal ⟨2, ![K, N]⟩ φ₂) (p : Fin M) (q : Fin N) :
    FloatOps.matmul (DotDims.plain M K N) prec x w (constant (F := Ideal) ⟨2, ![M, N]⟩ .f32 0x00000000#32) (ix2 p q)
      = ∑ k : Fin K, x (ix2 p k) * w (ix2 k q) := by
  rw [Ideal.matmul_constant_zero_apply, ← Equiv.sum_comp (contrEquiv1 (DotDims.plain M K N) K rfl rfl).symm]
  refine Finset.sum_congr rfl fun k _ => ?_
  rw [lhsIdx_eq, rhsIdx_eq]

end LibMatmulNN

end
-- ==== Proof.KernelPayload.lean ====
import proofs.«118844_j80350248173766_2_alg».proof.Proof.Gen.KernelIdeal.Skeleton
import proofs.«118844_j80350248173766_2_alg».proof.Proof.Spec
import proofs.«118844_j80350248173766_2_alg».proof.Proof.LibMatmulNN
import Idealize.ShloMosaic.Lib.Pipeline.Value
import Idealize.ShloMosaic.PureOps.Ideal.Laws

/-!
# What the body computes from the blocks it loads, entry by entry

The body lays its `[256, 1024]` blocks of `x` and `h` side by side, multiplies the `[256, 2048]` result by the
fused `[2048, 4096]` weight into a zero accumulator and adds the fused bias row to every row. Entry `(p, q)` of that
`[256, 4096]` pre-activation is the sum over the `x` half plus the sum over the `h` half plus the bias at `q`
(narrowing to the sixteen-bit format is the identity on the extended reals). The four gates are its four
`[256, 1024]` column slices; the two stored blocks are the new cell state and the new hidden state of the rows.
-/

noncomputable section

open scoped BigOperators

namespace Cert.KernelIdeal.Payload

open Cert.KernelIdeal Cert.KernelIdeal.Gen Idealize.ShloMosaic Idealize.ShloMosaic.ValueIdx LstmSpec

/-- Entry `(p, q)` of a block's pre-activation, from the loaded blocks. -/
def zBlk (v0 v2 : Vec Ideal S256x1024 .f32) (v5 : Vec Ideal S2048x4096 .bf16) (v8 : Vec Ideal S1x4096 .f32)
    (p : Fin 256) (q : Fin 4096) : EReal :=
  (∑ k : Fin 1024, v0 (ix2 p k) * v5 (ix2 (lo k) q)) + (∑ k : Fin 1024, v2 (ix2 p k) * v5 (ix2 (hi k) q))
    + v8 (ix2 (0 : Fin 1) q)

/-- The side-by-side block at a column of its first half is the `x` block there. -/
theorem side_lo (a b : FVec Ideal S256x1024 .bf16) (hc : Shape.Concatenates [S256x1024, S256x1024] S256x2048 1)
    (p : Fin 256) (k : Fin 1024) :
    concatenate S256x2048 1 [⟨S256x1024, a⟩, ⟨S256x1024, b⟩] hc (ix2 p (lo k)) = a (ix2 p k) :=
  concatenate_pair_apply_left (1 : Fin 2) a b hc (ix2 p (lo k)) rfl (ix2 p k)
    (fun d => match d with | ⟨0, _⟩ => rfl | ⟨1, _⟩ => rfl)

/-- The side-by-side block at a column of its second half is the `h` block, `1024` columns to the left. -/
theorem side_hi (a b : FVec Ideal S256x1024 .bf16) (hc : Shape.Concatenates [S256x1024, S256x1024] S256x2048 1)
    (p : Fin 256) (k : Fin 1024) :
    concatenate S256x2048 1 [⟨S256x1024, a⟩, ⟨S256x1024, b⟩] hc (ix2 p (hi k)) = b (ix2 p k) :=
  concatenate_pair_apply_right (1 : Fin 2) a b hc (ix2 p (hi k)) rfl rfl (ix2 p k)
    (fun d hd => match d, hd with | ⟨0, _⟩, _ => rfl | ⟨1, _⟩, hd => absurd rfl hd)
    (by show k.val + 1024 = 1024 + k.val; omega)

/-- The bias row spread over the `256` rows reads the row's entry of the column. -/
theorem bias_row (v8 : Vec Ideal S1x4096 .f32) (hs : S1x4096.ShapeCasts S1x4096) (hb : S1x4096.Broadcasts S256x4096)
    (p : Fin 256) (q : Fin 4096) :
    broadcastTo S256x4096 (shapeCast S1x4096 v8 hs) hb (ix2 p q) = v8 (ix2 (0 : Fin 1) q) :=
  (broadcastTo_apply (shapeCast S1x4096 v8 hs) hb (ix2 p q) (ix2 (0 : Fin 1) q) (fun a => match a with
    | ⟨0, _⟩ => by show 0 = if (1 : Nat) = 1 then 0 else _; rw [if_pos rfl]
    | ⟨1, _⟩ => by show q.val = if (4096 : Nat) = 1 then 0 else q.val; rw [if_neg (by decide)])).trans
    (congrFun (shapeCast_self v8 hs) _)

/-- The pre-activation block, entry by entry. -/
theorem pay1_apply (v0 v2 : Vec Ideal S256x1024 .f32) (v5 : Vec Ideal S2048x4096 .bf16) (v8 : Vec Ideal S1x4096 .f32)
    (p : Fin 256) (q : Fin 4096) :
    k0_pay1 (F := Ideal) v0 v2 v5 v8 (ix2 p q) = zBlk v0 v2 v5 v8 p q := by
  unfold k0_pay1 zBlk
  refine (addf_apply _ _ _).trans ?_
  refine congrArg₂ (· + ·) ?_ (bias_row v8 _ _ p q)
  refine (LibMatmulNN.matmul_zero_apply 256 2048 4096 none _ _ p q).trans ?_
  refine (sum_halves _).trans ?_
  refine congrArg₂ (· + ·) (Finset.sum_congr rfl fun k _ => ?_) (Finset.sum_congr rfl fun k _ => ?_)
  · exact congrArg₂ (· * ·) (side_lo _ _ _ p k) (congrFun (shapeCast_self v5 _) _)
  · exact congrArg₂ (· * ·) (side_hi _ _ _ p k) (congrFun (shapeCast_self v5 _) _)

/-- A `[256, 1024]` column slice of the pre-activation block at offset `o` reads it `o` columns to the right. -/
theorem gate_slice (z : FVec Ideal S256x4096 .f32) (o : Nat) (hs : S256x4096.Slices ![0, o] S256x1024)
    (p : Fin 256) (j : Fin 1024) (q : Fin 4096) (hq : q.val = o + j.val) :
    extractStridedSlice S256x1024 ![0, o] z hs (ix2 p j) = z (ix2 p q) :=
  extractStridedSlice_apply ![0, o] z hs (ix2 p j) (ix2 p q) (fun a => match a with
    | ⟨0, _⟩ => by show p.val = 0 + p.val; omega
    | ⟨1, _⟩ => hq)

/-- The stored cell-state block, entry by entry: the new cell state of the row's pre-activations. -/
theorem pay2_apply (v0 v2 : Vec Ideal S256x1024 .f32) (v5 : Vec Ideal S2048x4096 .bf16) (v8 : Vec Ideal S1x4096 .f32)
    (v20 : Vec Ideal S256x1024 .f32) (p : Fin 256) (j : Fin 1024) :
    k0_pay2 (F := Ideal) v0 v2 v5 v8 v20 (ix2 p j) = newC (zBlk v0 v2 v5 v8 p) (v20 (ix2 p j)) j := by
  unfold k0_pay2 newC
  simp only [← pay1_apply]
  generalize k0_pay1 (F := Ideal) v0 v2 v5 v8 = z
  show Ideal.logistic (extractStridedSlice S256x1024 ![0, 1024] z _ (ix2 p j)) * v20 (ix2 p j)
      + Ideal.logistic (extractStridedSlice S256x1024 ![0, 0] z _ (ix2 p j)) * Ideal.tanh (extractStridedSlice S256x1024 ![0, 3072] z _ (ix2 p j)) = _
  rw [gate_slice z 1024 _ p j (gF j) rfl, gate_slice z 0 _ p j (gI j) (by show j.val = 0 + j.val; omega),
    gate_slice z 3072 _ p j (gG j) rfl]

/-- The stored hidden-state block, entry by entry. -/
theorem pay3_apply (v0 v2 : Vec Ideal S256x1024 .f32) (v5 : Vec Ideal S2048x4096 .bf16) (v8 : Vec Ideal S1x4096 .f32)
    (v20 : Vec Ideal S256x1024 .f32) (p : Fin 256) (j : Fin 1024) :
    k0_pay3 (F := Ideal) v0 v2 v5 v8 v20 (ix2 p j) = newH (zBlk v0 v2 v5 v8 p) (v20 (ix2 p j)) j := by
  unfold k0_pay3 newH
  simp only [← pay2_apply, ← pay1_apply]
  generalize k0_pay2 (F := Ideal) v0 v2 v5 v8 v20 = cn
  generalize k0_pay1 (F := Ideal) v0 v2 v5 v8 = z
  show Ideal.logistic (extractStridedSlice S256x1024 ![0, 2048] z _ (ix2 p j)) * Ideal.tanh (cn (ix2 p j)) = _
  rw [gate_slice z 2048 _ p j (gO j) rfl]

end Cert.KernelIdeal.Payload

end
-- ==== Proof.KernelValue.lean ====
import proofs.«118844_j80350248173766_2_alg».proof.Proof.KernelIdealFrame
import proofs.«118844_j80350248173766_2_alg».proof.Proof.KernelPayload
import Idealize.ShloMosaic.Lib.StableHlo.Run
import Idealize.ShloMosaic.Lib.Pipeline.Value

/-!
# What the fused program leaves in its two result arrays

The host operations stack the gate weights of each side into `wx, wh : [4096, 1024]` and the biases into
`bx, bh : [4096]`, and hand the region the fused matrix (the transposed `wx` above the transposed `wh`) and the fused
row `bx + bh`. Grid point `t` works on rows `256 t … 256 t + 255`: its blocks of `x`, `h`, `c` are those rows, its
blocks of the fused matrix and row are the whole arrays, and it writes rows `256 t … 256 t + 255` of each result. The
32 blocks tile the results, so each result array ends as ONE function of the arrays the region found, and, the fused
pre-activation being the pre-activation, as the cell's new hidden and new cell state of the argument arrays.
-/

noncomputable section

open scoped BigOperators

namespace Cert.KernelIdeal.ValueProof

open Cert.KernelIdeal Cert.KernelIdeal.Gen Cert.KernelIdeal.FrameProof Cert.KernelIdeal.Payload
open Idealize.ShloMosaic Idealize.ShloMosaic.TcCoe Idealize.SL.Sem Idealize.ShloMosaic.StableHlo Idealize.ShloMosaic.ValueIdx LstmSpec
open Idealize.ShloMosaic.Pipeline (Dat)

variable (m : (ℓ : Loc nD τ sig) → Buf (Elt Ideal) ℓ) (ρ : Dev nD → PrngReg)

/-! ## The arrays the host operations build -/

/-- Four `[1024, 1024]` weights stacked along the rows. -/
def stack4 (a b c d : FVec Ideal S1024x1024 .f32) : FVec Ideal S4096x1024 .f32 :=
  concatenate S4096x1024 0 [⟨S1024x1024, a⟩, ⟨S1024x1024, b⟩, ⟨S1024x1024, c⟩, ⟨S1024x1024, d⟩]
    concatenates_S1024x1024_S1024x1024_S1024x1024_S1024x1024_S4096x1024_d0

/-- Four bias vectors stacked. -/
def stack4v (a b c d : FVec Ideal S1024 .f32) : FVec Ideal S4096 .f32 :=
  concatenate S4096 0 [⟨S1024, a⟩, ⟨S1024, b⟩, ⟨S1024, c⟩, ⟨S1024, d⟩] concatenates_S1024_S1024_S1024_S1024_S4096_d0

/-- The fused matrix: each stacked weight transposed and narrowed, the first above the second. -/
def fusedW (wx wh : FVec Ideal S4096x1024 .f32) : FVec Ideal S2048x4096 .bf16 :=
  concatenate S2048x4096 0
    [⟨S1024x4096, truncf .bf16 (transpose S1024x4096 [1, 0] wx transposes_S4096x1024_S1024x4096_1_0) bitsLt_bf16_f32⟩,
     ⟨S1024x4096, truncf .bf16 (transpose S1024x4096 [1, 0] wh transposes_S4096x1024_S1024x4096_1_0) bitsLt_bf16_f32⟩]
    concatenates_S1024x4096_S1024x4096_S2048x4096_d0

/-- The fused bias row: the sum of the two stacked biases as a `[1, 4096]` array. -/
def fusedB (bx bh : FVec Ideal S4096 .f32) : FVec Ideal S1x4096 .f32 :=
  shapeCast S1x4096 (addf bx bh) shapeCasts_S4096_S1x4096

/-- Row `k` of the upper half of the fused matrix is column `k` of the first stacked weight. -/
theorem fusedW_lo (wx wh : FVec Ideal S4096x1024 .f32) (k : Fin 1024) (q : Fin 4096) :
    fusedW wx wh (ix2 (lo k) q) = wx (ix2 q k) := by
  unfold fusedW
  refine (concatenate_pair_apply_left (t := S2048x4096) (s₁ := S1024x4096) (s₂ := S1024x4096) (0 : Fin 2) _ _ _ (ix2 (lo k) q) rfl (ix2 k q)
    (fun d => match d with | ⟨0, _⟩ => rfl | ⟨1, _⟩ => rfl)).trans ?_
  exact transpose_apply [1, 0] wx transposes_S4096x1024_S1024x4096_1_0 (ix2 k q) (ix2 q k)
    (fun b => match b with | ⟨0, _⟩ => rfl | ⟨1, _⟩ => rfl)

/-- Row `1024 + k` of the fused matrix is column `k` of the second stacked weight. -/
theorem fusedW_hi (wx wh : FVec Ideal S4096x1024 .f32) (k : Fin 1024) (q : Fin 4096) :
    fusedW wx wh (ix2 (hi k) q) = wh (ix2 q k) := by
  unfold fusedW
  refine (concatenate_pair_apply_right (t := S2048x4096) (s₁ := S1024x4096) (s₂ := S1024x4096) (0 : Fin 2) _ _ _ (ix2 (hi k) q) rfl rfl (ix2 k q)
    (fun d hd => match d, hd with | ⟨0, _⟩, hd => absurd rfl hd | ⟨1, _⟩, _ => rfl)
    (by show k.val + 1024 = 1024 + k.val; omega)).trans ?_
  exact transpose_apply [1, 0] wh transposes_S4096x1024_S1024x4096_1_0 (ix2 k q) (ix2 q k)
    (fun b => match b with | ⟨0, _⟩ => rfl | ⟨1, _⟩ => rfl)

/-- Entry `q` of the fused row is the sum of the two stacked biases at `q`. -/
theorem fusedB_apply (bx bh : FVec Ideal S4096 .f32) (q : Fin 4096) :
    fusedB bx bh (ix2 (0 : Fin 1) q) = bx (ix1 q) + bh (ix1 q) := by
  unfold fusedB
  refine (shapeCast_apply (addf bx bh) shapeCasts_S4096_S1x4096 (ix2 (0 : Fin 1) q) (ix1 q) ?_).trans rfl
  rw [Shape.rowMajor_val_one, Shape.rowMajor_val_two]
  show q.val = 0 * 4096 + q.val
  omega

set_option maxRecDepth 8192 in
/-- The region finds the fused matrix of the stacked argument weights in the buffer its fourth window stages. -/
theorem V_W (c : Dev nD) : (V m c main_v10 : S2048x4096.Idx → EReal) = fusedW (stack4 (m ((c.tc : Thread nD τ).loc main_arg3)) (m ((c.tc : Thread nD τ).loc main_arg7)) (m ((c.tc : Thread nD τ).loc main_arg11)) (m ((c.tc : Thread nD τ).loc main_arg15))) (stack4 (m ((c.tc : Thread nD τ).loc main_arg5)) (m ((c.tc : Thread nD τ).loc main_arg9)) (m ((c.tc : Thread nD τ).loc main_arg13)) (m ((c.tc : Thread nD τ).loc main_arg17))) := by
  dsimp only [V, hostOps0]
  after_results_simp
  rfl

set_option maxRecDepth 8192 in
/-- The region finds the fused row of the stacked argument biases in the buffer its fifth window stages. -/
theorem V_B (c : Dev nD) : (V m c main_v5 : S1x4096.Idx → EReal) = fusedB (stack4v (m ((c.tc : Thread nD τ).loc main_arg4)) (m ((c.tc : Thread nD τ).loc main_arg8)) (m ((c.tc : Thread nD τ).loc main_arg12)) (m ((c.tc : Thread nD τ).loc main_arg16))) (stack4v (m ((c.tc : Thread nD τ).loc main_arg6)) (m ((c.tc : Thread nD τ).loc main_arg10)) (m ((c.tc : Thread nD τ).loc main_arg14)) (m ((c.tc : Thread nD τ).loc main_arg18))) := by
  dsimp only [V, hostOps0]
  after_results_simp
  rfl

/-! ## The whole-array functions, over the arrays the region finds -/

/-- The new hidden state from the fused matrix and row. -/
def GH (x h cst : S8192x1024.Idx → EReal) (W : S2048x4096.Idx → EReal) (B : S1x4096.Idx → EReal) : S8192x1024.Idx → EReal :=
  fun i => newH (fused x h W B (i 0)) (cst i) (i 1)

/-- The new cell state from the fused matrix and row. -/
def GC (x h cst : S8192x1024.Idx → EReal) (W : S2048x4096.Idx → EReal) (B : S1x4096.Idx → EReal) : S8192x1024.Idx → EReal :=
  fun i => newC (fused x h W B (i 0)) (cst i) (i 1)

/-- A block of the body's result is the rows of the whole-array function: stated over plain arrays and blocks that
    hold their rows. -/
theorem blockH (x h cst : S8192x1024.Idx → EReal) (W : S2048x4096.Idx → EReal) (B : S1x4096.Idx → EReal)
    (x0 x1 x2 : Vec Ideal S256x1024 .f32) (x3 : Vec Ideal S2048x4096 .bf16) (x4 : Vec Ideal S1x4096 .f32) (r : Nat)
    (h0 : ∀ (y : S256x1024.Idx) (i : S8192x1024.Idx), (i 0).val = r * 256 + (y 0).val → (i 1).val = (y 1).val → x0 y = x i)
    (h1 : ∀ (y : S256x1024.Idx) (i : S8192x1024.Idx), (i 0).val = r * 256 + (y 0).val → (i 1).val = (y 1).val → x1 y = h i)
    (h2 : ∀ (y : S256x1024.Idx) (i : S8192x1024.Idx), (i 0).val = r * 256 + (y 0).val → (i 1).val = (y 1).val → x2 y = cst i)
    (h3 : x3 = W) (h4 : x4 = B)
    (y : S256x1024.Idx) (i : S8192x1024.Idx) (hi0 : (i 0).val = r * 256 + (y 0).val) (hi1 : (i 1).val = (y 1).val) :
    k0_pay3 (F := Ideal) x0 x1 x3 x4 x2 y = GH x h cst W B i := by
  subst h3 h4
  obtain ⟨p, j, rfl⟩ : ∃ (p : Fin 256) (j : Fin 1024), y = ix2 p j := ⟨y 0, y 1, eq_ix2 y⟩
  obtain ⟨P', J, rfl⟩ : ∃ (P' : Fin 8192) (J : Fin 1024), i = ix2 P' J := ⟨i 0, i 1, eq_ix2 i⟩
  have hP : P'.val = r * 256 + p.val := hi0
  have hJ : J = j := Fin.ext hi1
  subst hJ
  have hz : zBlk x0 x1 x3 x4 p = fused x h x3 x4 P' := funext fun q => by
    unfold zBlk fused
    have e0 : ∀ k : Fin 1024, x0 (ix2 p k) = x (ix2 P' k) := fun k => h0 _ _ hP rfl
    have e1 : ∀ k : Fin 1024, x1 (ix2 p k) = h (ix2 P' k) := fun k => h1 _ _ hP rfl
    simp only [e0, e1]
  have hc : x2 (ix2 p J) = cst (ix2 P' J) := h2 _ _ hP rfl
  rw [pay3_apply, hz, hc]
  rfl

/-- A block of the body's result is the rows of the whole-array function: stated over plain arrays and blocks that
    hold their rows. -/
theorem blockC (x h cst : S8192x1024.Idx → EReal) (W : S2048x4096.Idx → EReal) (B : S1x4096.Idx → EReal)
    (x0 x1 x2 : Vec Ideal S256x1024 .f32) (x3 : Vec Ideal S2048x4096 .bf16) (x4 : Vec Ideal S1x4096 .f32) (r : Nat)
    (h0 : ∀ (y : S256x1024.Idx) (i : S8192x1024.Idx), (i 0).val = r * 256 + (y 0).val → (i 1).val = (y 1).val → x0 y = x i)
    (h1 : ∀ (y : S256x1024.Idx) (i : S8192x1024.Idx), (i 0).val = r * 256 + (y 0).val → (i 1).val = (y 1).val → x1 y = h i)
    (h2 : ∀ (y : S256x1024.Idx) (i : S8192x1024.Idx), (i 0).val = r * 256 + (y 0).val → (i 1).val = (y 1).val → x2 y = cst i)
    (h3 : x3 = W) (h4 : x4 = B)
    (y : S256x1024.Idx) (i : S8192x1024.Idx) (hi0 : (i 0).val = r * 256 + (y 0).val) (hi1 : (i 1).val = (y 1).val) :
    k0_pay2 (F := Ideal) x0 x1 x3 x4 x2 y = GC x h cst W B i := by
  subst h3 h4
  obtain ⟨p, j, rfl⟩ : ∃ (p : Fin 256) (j : Fin 1024), y = ix2 p j := ⟨y 0, y 1, eq_ix2 y⟩
  obtain ⟨P', J, rfl⟩ : ∃ (P' : Fin 8192) (J : Fin 1024), i = ix2 P' J := ⟨i 0, i 1, eq_ix2 i⟩
  have hP : P'.val = r * 256 + p.val := hi0
  have hJ : J = j := Fin.ext hi1
  subst hJ
  have hz : zBlk x0 x1 x3 x4 p = fused x h x3 x4 P' := funext fun q => by
    unfold zBlk fused
    have e0 : ∀ k : Fin 1024, x0 (ix2 p k) = x (ix2 P' k) := fun k => h0 _ _ hP rfl
    have e1 : ∀ k : Fin 1024, x1 (ix2 p k) = h (ix2 P' k) := fun k => h1 _ _ hP rfl
    simp only [e0, e1]
  have hc : x2 (ix2 p J) = cst (ix2 P' J) := h2 _ _ hP rfl
  rw [pay2_apply, hz, hc]
  rfl

/-! ## The windows' blocks -/

theorem hz : (![0, 0] : Fin 2 → Nat) = fun _ => 0 := funext fun a => by fin_cases a <;> rfl

/-- The index maps, decided over the 32 points: the three row-blocked inputs and the two outputs sit at block row
    `t`, column block `0`; the fused matrix and row are one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- The block of `x` at point `t` holds rows `256 t … 256 t + 255` of the array. -/
theorem blk0 (c : Dev nD) (t : Fin cfg0.N) (y : S256x1024.Idx) (i : S8192x1024.Idx)
    (h0 : (i 0).val = t.val * 256 + (y 0).val) (h1 : (i 1).val = (y 1).val) :
    iblk m c 0 t y = V m c main_arg0 i := by
  obtain ⟨e00, e01, e10, e11, e20, e21, e30, e31, e40, e41, e50, e51, e60, e61⟩ := idx_facts t
  show V m c main_arg0 (((cfg0.win 0).blk t).view.emb y) = V m c main_arg0 i
  refine congrArg (V m c main_arg0) (funext fun a => Fin.ext ?_)
  match a with
  | ⟨0, _⟩ => show win0_0.index t (0 : Fin 2) * 256 + 1 * (y 0).val = (i 0).val; omega
  | ⟨1, _⟩ => show win0_0.index t (1 : Fin 2) * 1024 + 1 * (y 1).val = (i 1).val; have hy : (y 1).val < 1024 := (y 1).isLt; omega

/-- The block of `h` at point `t` holds rows `256 t … 256 t + 255` of the array. -/
theorem blk1 (c : Dev nD) (t : Fin cfg0.N) (y : S256x1024.Idx) (i : S8192x1024.Idx)
    (h0 : (i 0).val = t.val * 256 + (y 0).val) (h1 : (i 1).val = (y 1).val) :
    iblk m c 1 t y = V m c main_arg1 i := by
  obtain ⟨e00, e01, e10, e11, e20, e21, e30, e31, e40, e41, e50, e51, e60, e61⟩ := idx_facts t
  show V m c main_arg1 (((cfg0.win 1).blk t).view.emb y) = V m c main_arg1 i
  refine congrArg (V m c main_arg1) (funext fun a => Fin.ext ?_)
  match a with
  | ⟨0, _⟩ => show win0_1.index t (0 : Fin 2) * 256 + 1 * (y 0).val = (i 0).val; omega
  | ⟨1, _⟩ => show win0_1.index t (1 : Fin 2) * 1024 + 1 * (y 1).val = (i 1).val; have hy : (y 1).val < 1024 := (y 1).isLt; omega

/-- The block of `c` at point `t` holds rows `256 t … 256 t + 255` of the array. -/
theorem blk2 (c : Dev nD) (t : Fin cfg0.N) (y : S256x1024.Idx) (i : S8192x1024.Idx)
    (h0 : (i 0).val = t.val * 256 + (y 0).val) (h1 : (i 1).val = (y 1).val) :
    iblk m c 2 t y = V m c main_arg2 i := by
  obtain ⟨e00, e01, e10, e11, e20, e21, e30, e31, e40, e41, e50, e51, e60, e61⟩ := idx_facts t
  show V m c main_arg2 (((cfg0.win 2).blk t).view.emb y) = V m c main_arg2 i
  refine congrArg (V m c main_arg2) (funext fun a => Fin.ext ?_)
  match a with
  | ⟨0, _⟩ => show win0_2.index t (0 : Fin 2) * 256 + 1 * (y 0).val = (i 0).val; omega
  | ⟨1, _⟩ => show win0_2.index t (1 : Fin 2) * 1024 + 1 * (y 1).val = (i 1).val; have hy : (y 1).val < 1024 := (y 1).isLt; omega

/-- The block of the fused matrix at any point is the whole matrix. -/
theorem blk3 (c : Dev nD) (t : Fin cfg0.N) : iblk m c 3 t = V m c main_v10 := by
  obtain ⟨e00, e01, e10, e11, e20, e21, e30, e31, e40, e41, e50, e51, e60, e61⟩ := idx_facts t
  funext y
  show V m c main_v10 (((cfg0.win 3).blk t).view.emb y) = V m c main_v10 y
  refine congrArg (V m c main_v10) (funext fun a => Fin.ext ?_)
  match a with
  | ⟨0, _⟩ => show win0_3.index t (0 : Fin 2) * 2048 + 1 * (y 0).val = (y 0).val; omega
  | ⟨1, _⟩ => show win0_3.index t (1 : Fin 2) * 4096 + 1 * (y 1).val = (y 1).val; omega

/-- The block of the fused row at any point is the whole row. -/
theorem blk4 (c : Dev nD) (t : Fin cfg0.N) : iblk m c 4 t = V m c main_v5 := by
  obtain ⟨e00, e01, e10, e11, e20, e21, e30, e31, e40, e41, e50, e51, e60, e61⟩ := idx_facts t
  funext y
  show V m c main_v5 (((cfg0.win 4).blk t).view.emb y) = V m c main_v5 y
  refine congrArg (V m c main_v5) (funext fun a => Fin.ext ?_)
  match a with
  | ⟨0, _⟩ => show win0_4.index t (0 : Fin 2) * 1 + 1 * (y 0).val = (y 0).val; omega
  | ⟨1, _⟩ => show win0_4.index t (1 : Fin 2) * 4096 + 1 * (y 1).val = (y 1).val; omega

/-! ## What each point writes back, the cover, and the arrays after the run -/

/-- What point `t` writes back is block `t` of the whole-array function. -/
theorem flushed5_eq (c : Dev nD) (t : Fin cfg0.N) :
    (dats m 0 c).flushed 5 t = ((cfg0.win 5).blk t).view.read (Elt Ideal)
      (GH (V m c main_arg0) (V m c main_arg1) (V m c main_arg2) (V m c main_v10) (V m c main_v5)) := by
  show (cfg0.win 5).cut (grid0.coords t) ((dats m 0 c).after 5 t) = _
  rw [after0_5]
  unfold outH
  rw [View.canon_unit_zero hz]
  simp only [View.ld_unit_zero (S := S256x1024) hz, View.ld_unit_zero (S := S2048x4096) hz, View.ld_unit_zero (S := S1x4096) hz]
  funext y
  obtain ⟨e00, e01, e10, e11, e20, e21, e30, e31, e40, e41, e50, e51, e60, e61⟩ := idx_facts t
  refine blockH (V m c main_arg0) (V m c main_arg1) (V m c main_arg2) (V m c main_v10) (V m c main_v5)
    (iblk m c 0 t) (iblk m c 1 t) (iblk m c 2 t) (iblk m c 3 t) (iblk m c 4 t) t.val
    (fun y' i' h0 h1 => blk0 m c t y' i' h0 h1) (fun y' i' h0 h1 => blk1 m c t y' i' h0 h1) (fun y' i' h0 h1 => blk2 m c t y' i' h0 h1)
    (blk3 m c t) (blk4 m c t) y (((cfg0.win 5).blk t).view.emb y) ?_ ?_
  · show win0_5.index t (0 : Fin 2) * 256 + 1 * (y 0).val = t.val * 256 + (y 0).val; omega
  · show win0_5.index t (1 : Fin 2) * 1024 + 1 * (y 1).val = (y 1).val; omega

/-- What point `t` writes back is block `t` of the whole-array function. -/
theorem flushed6_eq (c : Dev nD) (t : Fin cfg0.N) :
    (dats m 0 c).flushed 6 t = ((cfg0.win 6).blk t).view.read (Elt Ideal)
      (GC (V m c main_arg0) (V m c main_arg1) (V m c main_arg2) (V m c main_v10) (V m c main_v5)) := by
  show (cfg0.win 6).cut (grid0.coords t) ((dats m 0 c).after 6 t) = _
  rw [after0_6]
  unfold outC
  rw [View.canon_unit_zero hz]
  simp only [View.ld_unit_zero (S := S256x1024) hz, View.ld_unit_zero (S := S2048x4096) hz, View.ld_unit_zero (S := S1x4096) hz]
  funext y
  obtain ⟨e00, e01, e10, e11, e20, e21, e30, e31, e40, e41, e50, e51, e60, e61⟩ := idx_facts t
  refine blockC (V m c main_arg0) (V m c main_arg1) (V m c main_arg2) (V m c main_v10) (V m c main_v5)
    (iblk m c 0 t) (iblk m c 1 t) (iblk m c 2 t) (iblk m c 3 t) (iblk m c 4 t) t.val
    (fun y' i' h0 h1 => blk0 m c t y' i' h0 h1) (fun y' i' h0 h1 => blk1 m c t y' i' h0 h1) (fun y' i' h0 h1 => blk2 m c t y' i' h0 h1)
    (blk3 m c t) (blk4 m c t) y (((cfg0.win 6).blk t).view.emb y) ?_ ?_
  · show win0_6.index t (0 : Fin 2) * 256 + 1 * (y 0).val = t.val * 256 + (y 0).val; omega
  · show win0_6.index t (1 : Fin 2) * 1024 + 1 * (y 1).val = (y 1).val; omega

theorem mem_blk5 (t : Fin cfg0.N) (i : S8192x1024.Idx) :
    i ∈ ((cfg0.win 5).blk t).view.set ↔ ∀ a : Fin 2, win0_5.index t a * S256x1024.size a ≤ (i a).val ∧ (i a).val < win0_5.index t a * S256x1024.size a + S256x1024.size a := by
  show i ∈ ((View.whole main_v11_0).slice (win0_5.rect t)).set ↔ _
  rw [View.set_slice_whole, Rect.mem_set_unit]
  exact Iff.rfl

/-- Every row belongs to the block of the point `row / 256`. -/
theorem cover5 (i : S8192x1024.Idx) : ∃ t : Fin cfg0.N, (cfg0.win 5).flush t = true ∧ i ∈ ((cfg0.win 5).blk t).view.set := by
  have hi0 : (i 0).val < 8192 := (i 0).isLt
  have hi1 : (i 1).val < 1024 := (i 1).isLt
  have hN : (i 0).val / 256 < cfg0.N := by rw [show cfg0.N = 32 from N_0]; omega
  refine ⟨⟨(i 0).val / 256, hN⟩, flush0_5 _, ?_⟩
  rw [mem_blk5]
  obtain ⟨e00, e01, e10, e11, e20, e21, e30, e31, e40, e41, e50, e51, e60, e61⟩ := idx_facts ⟨(i 0).val / 256, hN⟩
  have htv : (⟨(i 0).val / 256, hN⟩ : Fin cfg0.N).val = (i 0).val / 256 := rfl
  intro a
  match a with
  | ⟨0, _⟩ =>
    show win0_5.index ⟨(i 0).val / 256, hN⟩ (0 : Fin 2) * 256 ≤ (i 0).val ∧ (i 0).val < win0_5.index ⟨(i 0).val / 256, hN⟩ (0 : Fin 2) * 256 + 256
    omega
  | ⟨1, _⟩ =>
    show win0_5.index ⟨(i 0).val / 256, hN⟩ (1 : Fin 2) * 1024 ≤ (i 1).val ∧ (i 1).val < win0_5.index ⟨(i 0).val / 256, hN⟩ (1 : Fin 2) * 1024 + 1024
    omega

theorem mem_blk6 (t : Fin cfg0.N) (i : S8192x1024.Idx) :
    i ∈ ((cfg0.win 6).blk t).view.set ↔ ∀ a : Fin 2, win0_6.index t a * S256x1024.size a ≤ (i a).val ∧ (i a).val < win0_6.index t a * S256x1024.size a + S256x1024.size a := by
  show i ∈ ((View.whole main_v11_1).slice (win0_6.rect t)).set ↔ _
  rw [View.set_slice_whole, Rect.mem_set_unit]
  exact Iff.rfl

/-- Every row belongs to the block of the point `row / 256`. -/
theorem cover6 (i : S8192x1024.Idx) : ∃ t : Fin cfg0.N, (cfg0.win 6).flush t = true ∧ i ∈ ((cfg0.win 6).blk t).view.set := by
  have hi0 : (i 0).val < 8192 := (i 0).isLt
  have hi1 : (i 1).val < 1024 := (i 1).isLt
  have hN : (i 0).val / 256 < cfg0.N := by rw [show cfg0.N = 32 from N_0]; omega
  refine ⟨⟨(i 0).val / 256, hN⟩, flush0_6 _, ?_⟩
  rw [mem_blk6]
  obtain ⟨e00, e01, e10, e11, e20, e21, e30, e31, e40, e41, e50, e51, e60, e61⟩ := idx_facts ⟨(i 0).val / 256, hN⟩
  have htv : (⟨(i 0).val / 256, hN⟩ : Fin cfg0.N).val = (i 0).val / 256 := rfl
  intro a
  match a with
  | ⟨0, _⟩ =>
    show win0_6.index ⟨(i 0).val / 256, hN⟩ (0 : Fin 2) * 256 ≤ (i 0).val ∧ (i 0).val < win0_6.index ⟨(i 0).val / 256, hN⟩ (0 : Fin 2) * 256 + 256
    omega
  | ⟨1, _⟩ =>
    show win0_6.index ⟨(i 0).val / 256, hN⟩ (1 : Fin 2) * 1024 ≤ (i 1).val ∧ (i 1).val < win0_6.index ⟨(i 0).val / 256, hN⟩ (1 : Fin 2) * 1024 + 1024
    omega

/-- The hidden-state result after the run, over the arrays the region found. -/
theorem final5 (c : Dev nD) : (dats m 0 c).arrAt 5 cfg0.N
    = GH (V m c main_arg0) (V m c main_arg1) (V m c main_arg2) (V m c main_v10) (V m c main_v5) :=
  (dats m 0 c).arrAt_eq_of_cover 5 _ (fun t _ => flushed5_eq m c t) cover5

/-- The cell-state result after the run, over the arrays the region found. -/
theorem final6 (c : Dev nD) : (dats m 0 c).arrAt 6 cfg0.N
    = GC (V m c main_arg0) (V m c main_arg1) (V m c main_arg2) (V m c main_v10) (V m c main_v5) :=
  (dats m 0 c).arrAt_eq_of_cover 6 _ (fun t _ => flushed6_eq m c t) cover6

/-! ## The fused pre-activation is the pre-activation -/

theorem fused_stack (x h : S8192x1024.Idx → EReal) (wx wh : FVec Ideal S4096x1024 .f32) (bx bh : FVec Ideal S4096 .f32) (p : Fin 8192) :
    fused x h (fusedW wx wh) (fusedB bx bh) p = preact x h wx wh bx bh p :=
  funext fun q => fused_eq_preact x h (fusedW wx wh) (fusedB bx bh) wx wh bx bh
    (fusedW_lo wx wh) (fusedW_hi wx wh) (fusedB_apply bx bh) p q

theorem GH_eq (x h cst : S8192x1024.Idx → EReal) (wx wh : FVec Ideal S4096x1024 .f32) (bx bh : FVec Ideal S4096 .f32) :
    GH x h cst (fusedW wx wh) (fusedB bx bh) = cellH x h cst wx wh bx bh := by
  funext i; unfold GH cellH
  exact congrArg (fun z => newH z (cst i) (i 1)) (fused_stack x h wx wh bx bh (i 0))

theorem GC_eq (x h cst : S8192x1024.Idx → EReal) (wx wh : FVec Ideal S4096x1024 .f32) (bx bh : FVec Ideal S4096 .f32) :
    GC x h cst (fusedW wx wh) (fusedB bx bh) = cellC x h cst wx wh bx bh := by
  funext i; unfold GC cellC
  exact congrArg (fun z => newC z (cst i) (i 1)) (fused_stack x h wx wh bx bh (i 0))

/-! ## The run, read -/

/-- Every execution of the fused program terminates with the first result at the cell's new hidden state and the
    second at its new cell state of the argument arrays, and the arguments unchanged. -/
theorem run : θ_run defs (onTc (τ := τ) (main (F := Ideal))) ⟨m, fun _ => 0, ρ⟩ fun r => ∀ c : Dev nD,
      r.2.mem ((c.tc : Thread nD τ).loc main_v11_0) = cellH (m ((c.tc : Thread nD τ).loc main_arg0)) (m ((c.tc : Thread nD τ).loc main_arg1)) (m ((c.tc : Thread nD τ).loc main_arg2)) (stack4 (m ((c.tc : Thread nD τ).loc main_arg3)) (m ((c.tc : Thread nD τ).loc main_arg7)) (m ((c.tc : Thread nD τ).loc main_arg11)) (m ((c.tc : Thread nD τ).loc main_arg15))) (stack4 (m ((c.tc : Thread nD τ).loc main_arg5)) (m ((c.tc : Thread nD τ).loc main_arg9)) (m ((c.tc : Thread nD τ).loc main_arg13)) (m ((c.tc : Thread nD τ).loc main_arg17))) (stack4v (m ((c.tc : Thread nD τ).loc main_arg4)) (m ((c.tc : Thread nD τ).loc main_arg8)) (m ((c.tc : Thread nD τ).loc main_arg12)) (m ((c.tc : Thread nD τ).loc main_arg16))) (stack4v (m ((c.tc : Thread nD τ).loc main_arg6)) (m ((c.tc : Thread nD τ).loc main_arg10)) (m ((c.tc : Thread nD τ).loc main_arg14)) (m ((c.tc : Thread nD τ).loc main_arg18)))
      ∧ r.2.mem ((c.tc : Thread nD τ).loc main_v11_1) = cellC (m ((c.tc : Thread nD τ).loc main_arg0)) (m ((c.tc : Thread nD τ).loc main_arg1)) (m ((c.tc : Thread nD τ).loc main_arg2)) (stack4 (m ((c.tc : Thread nD τ).loc main_arg3)) (m ((c.tc : Thread nD τ).loc main_arg7)) (m ((c.tc : Thread nD τ).loc main_arg11)) (m ((c.tc : Thread nD τ).loc main_arg15))) (stack4 (m ((c.tc : Thread nD τ).loc main_arg5)) (m ((c.tc : Thread nD τ).loc main_arg9)) (m ((c.tc : Thread nD τ).loc main_arg13)) (m ((c.tc : Thread nD τ).loc main_arg17))) (stack4v (m ((c.tc : Thread nD τ).loc main_arg4)) (m ((c.tc : Thread nD τ).loc main_arg8)) (m ((c.tc : Thread nD τ).loc main_arg12)) (m ((c.tc : Thread nD τ).loc main_arg16))) (stack4v (m ((c.tc : Thread nD τ).loc main_arg6)) (m ((c.tc : Thread nD τ).loc main_arg10)) (m ((c.tc : Thread nD τ).loc main_arg14)) (m ((c.tc : Thread nD τ).loc main_arg18)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  (θ_run defs _ _).mono (fun r h c =>
    ⟨((h c).1 5).trans ((final5 m c).trans (by rw [V_main_arg0, V_main_arg1, V_main_arg2, V_W, V_B, GH_eq])),
     ((h c).1 6).trans ((final6 m c).trans (by rw [V_main_arg0, V_main_arg1, V_main_arg2, V_W, V_B, GC_eq])),
     kept_of m (dats m) (A_eq m) r h c⟩)
    (run_main m ρ)

end Cert.KernelIdeal.ValueProof

end
-- ==== Proof.RefStages.lean ====
import proofs.«118844_j80350248173766_2_alg».proof.Proof.Gen.ReferenceIdeal.Read
import proofs.«118844_j80350248173766_2_alg».proof.Proof.Spec
import Idealize.ShloMosaic.Lib.ValueIdx
import Idealize.ShloMosaic.PureOps.Ideal.Laws

/-!
# The reference computes the cell

The reference stacks the gate weights and biases exactly as the fused program does, forms the `[8192, 4096]`
pre-activation `((x·wxᵀ + bx) + h·whᵀ) + bh` with two matrix products and two broadcast bias rows, cuts it into four
`[8192, 1024]` column slices, and applies the gates; its logistic function is spelt `1 / (1 + exp (-z))`, which on the
extended reals is the logistic function itself. Read entry by entry, its two results are the new hidden state and the
new cell state of the specification, over the stacked arrays left as they are.
-/

noncomputable section

open scoped BigOperators

namespace Cert.ReferenceIdeal.Stages

open Cert.ReferenceIdeal Cert.ReferenceIdeal.Gen Cert.ReferenceIdeal.Read
open Idealize.ShloMosaic Idealize.ShloMosaic.ValueIdx LstmSpec

/-! ## The index functions of the layout operations, by coordinates -/

theorem lidx5 (j : S8192x4096.Idx) (k : Fin 1024) : lidx_main_v5 j k = ix2 (j 0) k :=
  funext fun a => match a with | ⟨0, _⟩ => rfl | ⟨1, _⟩ => rfl
theorem ridx5 (j : S8192x4096.Idx) (k : Fin 1024) : idx_main_v4 (ridx_main_v5 j k) = ix2 (j 1) k :=
  funext fun a => match a with | ⟨0, _⟩ => rfl | ⟨1, _⟩ => rfl
theorem lidx10 (j : S8192x4096.Idx) (k : Fin 1024) : lidx_main_v10 j k = ix2 (j 0) k :=
  funext fun a => match a with | ⟨0, _⟩ => rfl | ⟨1, _⟩ => rfl
theorem ridx10 (j : S8192x4096.Idx) (k : Fin 1024) : idx_main_v9 (ridx_main_v10 j k) = ix2 (j 1) k :=
  funext fun a => match a with | ⟨0, _⟩ => rfl | ⟨1, _⟩ => rfl
theorem bidx7 (j : S8192x4096.Idx) : idx_main_v6 (idx_main_v7 j) = ix1 (j 1) :=
  funext fun a => match a with | ⟨0, _⟩ => rfl
theorem bidx13 (j : S8192x4096.Idx) : idx_main_v12 (idx_main_v13 j) = ix1 (j 1) :=
  funext fun a => match a with | ⟨0, _⟩ => rfl
theorem sidx15 (i : S8192x1024.Idx) : idx_main_v15 i = ix2 (i 0) (gI (i 1)) :=
  funext fun a => match a with | ⟨0, _⟩ => rfl | ⟨1, _⟩ => rfl
theorem sidx16 (i : S8192x1024.Idx) : idx_main_v16 i = ix2 (i 0) (gF (i 1)) :=
  funext fun a => match a with | ⟨0, _⟩ => rfl | ⟨1, _⟩ => rfl
theorem sidx17 (i : S8192x1024.Idx) : idx_main_v17 i = ix2 (i 0) (gO (i 1)) :=
  funext fun a => match a with | ⟨0, _⟩ => rfl | ⟨1, _⟩ => rfl
theorem sidx18 (i : S8192x1024.Idx) : idx_main_v18 i = ix2 (i 0) (gG (i 1)) :=
  funext fun a => match a with | ⟨0, _⟩ => rfl | ⟨1, _⟩ => rfl

/-! ## The pre-activation -/

/-- Entry `(p, q)` of the reference's `[8192, 4096]` pre-activation is the specification's. -/
theorem preact_apply (x0 x1 x2 : FVec Ideal S8192x1024 .f32) (x3 : FVec Ideal S1024x1024 .f32) (x4 : FVec Ideal S1024 .f32) (x5 : FVec Ideal S1024x1024 .f32) (x6 : FVec Ideal S1024 .f32) (x7 : FVec Ideal S1024x1024 .f32) (x8 : FVec Ideal S1024 .f32) (x9 : FVec Ideal S1024x1024 .f32) (x10 : FVec Ideal S1024 .f32) (x11 : FVec Ideal S1024x1024 .f32) (x12 : FVec Ideal S1024 .f32) (x13 : FVec Ideal S1024x1024 .f32) (x14 : FVec Ideal S1024 .f32) (x15 : FVec Ideal S1024x1024 .f32) (x16 : FVec Ideal S1024 .f32) (x17 : FVec Ideal S1024x1024 .f32) (x18 : FVec Ideal S1024 .f32) (p : Fin 8192) (q : Fin 4096) :
    val_main_v14 (F := Ideal) x0 x1 x3 x4 x5 x6 x7 x8 x9 x10 x11 x12 x13 x14 x15 x16 x17 x18 (ix2 p q)
      = preact x0 x1 (val_main_v0 (F := Ideal) x3 x7 x11 x15) (val_main_v1 (F := Ideal) x5 x9 x13 x17) (val_main_v2 (F := Ideal) x4 x8 x12 x16) (val_main_v3 (F := Ideal) x6 x10 x14 x18) p q := by
  rw [val_main_v14_apply, val_main_v11_apply, val_main_v8_apply, val_main_v5_apply, val_main_v10_apply,
    val_main_v7_apply, val_main_v6_apply, val_main_v13_apply, val_main_v12_apply]
  simp only [val_main_v4_apply, val_main_v9_apply, lidx5, ridx5, lidx10, ridx10, bidx7, bidx13]
  rfl

/-! ## The gates -/

/-- The reference's logistic function of a number, spelt with a quotient, is the logistic function. -/
theorem logistic_spelt (z : EReal) :
    Ideal.div (Ideal.ofBits .f32 0x3F800000#32) (Ideal.ofBits .f32 0x3F800000#32 + Ideal.exp (-z)) = Ideal.logistic z := by
  rw [one_bits]; rfl

/-- The reference's second result, entry by entry, is the new cell state. -/
theorem cell_apply (x0 x1 x2 : FVec Ideal S8192x1024 .f32) (x3 : FVec Ideal S1024x1024 .f32) (x4 : FVec Ideal S1024 .f32) (x5 : FVec Ideal S1024x1024 .f32) (x6 : FVec Ideal S1024 .f32) (x7 : FVec Ideal S1024x1024 .f32) (x8 : FVec Ideal S1024 .f32) (x9 : FVec Ideal S1024x1024 .f32) (x10 : FVec Ideal S1024 .f32) (x11 : FVec Ideal S1024x1024 .f32) (x12 : FVec Ideal S1024 .f32) (x13 : FVec Ideal S1024x1024 .f32) (x14 : FVec Ideal S1024 .f32) (x15 : FVec Ideal S1024x1024 .f32) (x16 : FVec Ideal S1024 .f32) (x17 : FVec Ideal S1024x1024 .f32) (x18 : FVec Ideal S1024 .f32) (i : S8192x1024.Idx) :
    val_main_v40 (F := Ideal) x0 x1 x2 x3 x4 x5 x6 x7 x8 x9 x10 x11 x12 x13 x14 x15 x16 x17 x18 i
      = cellC x0 x1 x2 (val_main_v0 (F := Ideal) x3 x7 x11 x15) (val_main_v1 (F := Ideal) x5 x9 x13 x17) (val_main_v2 (F := Ideal) x4 x8 x12 x16) (val_main_v3 (F := Ideal) x6 x10 x14 x18) i := by
  rw [val_main_v40_apply, val_main_v38_apply, val_main_v39_apply, val_main_v30_apply, val_main_v29_apply,
    val_main_cst_2_apply, val_main_v28_apply, val_main_v27_apply, val_main_cst_1_apply, val_main_v26_apply,
    val_main_v25_apply, val_main_v16_apply, val_main_v24_apply, val_main_v23_apply, val_main_cst_0_apply,
    val_main_v22_apply, val_main_v21_apply, val_main_cst_apply, val_main_v20_apply, val_main_v19_apply,
    val_main_v15_apply, val_main_v37_apply, val_main_v18_apply, sidx15, sidx16, sidx18]
  simp only [Ideal.hostDivf_def, Ideal.hostUnary_exp_def, Ideal.hostNegf_def, Ideal.negf_def, Ideal.addf_def, Ideal.mulf_def,
    Ideal.hostUnary_tanh_def, Ideal.ofBits_def, logistic_spelt]
  have e : ∀ q : Fin 4096, val_main_v14 (F := Ideal) x0 x1 x3 x4 x5 x6 x7 x8 x9 x10 x11 x12 x13 x14 x15 x16 x17 x18 (ix2 (i 0) q)
      = preact x0 x1 (val_main_v0 (F := Ideal) x3 x7 x11 x15) (val_main_v1 (F := Ideal) x5 x9 x13 x17) (val_main_v2 (F := Ideal) x4 x8 x12 x16) (val_main_v3 (F := Ideal) x6 x10 x14 x18) (i 0) q :=
    fun q => preact_apply x0 x1 x2 x3 x4 x5 x6 x7 x8 x9 x10 x11 x12 x13 x14 x15 x16 x17 x18 (i 0) q
  unfold cellC newC
  exact congrArg₂ (· + ·) (congrArg₂ (· * ·) (congrArg Ideal.logistic (e _)) rfl)
    (congrArg₂ (· * ·) (congrArg Ideal.logistic (e _)) (congrArg Ideal.tanh (e _)))

/-- The reference's first result, entry by entry, is the new hidden state. -/
theorem hidden_apply (x0 x1 x2 : FVec Ideal S8192x1024 .f32) (x3 : FVec Ideal S1024x1024 .f32) (x4 : FVec Ideal S1024 .f32) (x5 : FVec Ideal S1024x1024 .f32) (x6 : FVec Ideal S1024 .f32) (x7 : FVec Ideal S1024x1024 .f32) (x8 : FVec Ideal S1024 .f32) (x9 : FVec Ideal S1024x1024 .f32) (x10 : FVec Ideal S1024 .f32) (x11 : FVec Ideal S1024x1024 .f32) (x12 : FVec Ideal S1024 .f32) (x13 : FVec Ideal S1024x1024 .f32) (x14 : FVec Ideal S1024 .f32) (x15 : FVec Ideal S1024x1024 .f32) (x16 : FVec Ideal S1024 .f32) (x17 : FVec Ideal S1024x1024 .f32) (x18 : FVec Ideal S1024 .f32) (i : S8192x1024.Idx) :
    val_main_v42 (F := Ideal) x0 x1 x2 x3 x4 x5 x6 x7 x8 x9 x10 x11 x12 x13 x14 x15 x16 x17 x18 i
      = cellH x0 x1 x2 (val_main_v0 (F := Ideal) x3 x7 x11 x15) (val_main_v1 (F := Ideal) x5 x9 x13 x17) (val_main_v2 (F := Ideal) x4 x8 x12 x16) (val_main_v3 (F := Ideal) x6 x10 x14 x18) i := by
  rw [val_main_v42_apply, val_main_v41_apply, cell_apply, val_main_v36_apply, val_main_v35_apply, val_main_cst_4_apply,
    val_main_v34_apply, val_main_v33_apply, val_main_cst_3_apply, val_main_v32_apply, val_main_v31_apply,
    val_main_v17_apply, sidx17]
  simp only [Ideal.hostDivf_def, Ideal.hostUnary_exp_def, Ideal.hostNegf_def, Ideal.negf_def, Ideal.addf_def, Ideal.mulf_def,
    Ideal.hostUnary_tanh_def, Ideal.ofBits_def, logistic_spelt]
  have e : ∀ q : Fin 4096, val_main_v14 (F := Ideal) x0 x1 x3 x4 x5 x6 x7 x8 x9 x10 x11 x12 x13 x14 x15 x16 x17 x18 (ix2 (i 0) q)
      = preact x0 x1 (val_main_v0 (F := Ideal) x3 x7 x11 x15) (val_main_v1 (F := Ideal) x5 x9 x13 x17) (val_main_v2 (F := Ideal) x4 x8 x12 x16) (val_main_v3 (F := Ideal) x6 x10 x14 x18) (i 0) q :=
    fun q => preact_apply x0 x1 x2 x3 x4 x5 x6 x7 x8 x9 x10 x11 x12 x13 x14 x15 x16 x17 x18 (i 0) q
  unfold cellH newH
  exact congrArg₂ (· * ·) (congrArg Ideal.logistic (e _)) rfl

theorem cell_eq (x0 x1 x2 : FVec Ideal S8192x1024 .f32) (x3 : FVec Ideal S1024x1024 .f32) (x4 : FVec Ideal S1024 .f32) (x5 : FVec Ideal S1024x1024 .f32) (x6 : FVec Ideal S1024 .f32) (x7 : FVec Ideal S1024x1024 .f32) (x8 : FVec Ideal S1024 .f32) (x9 : FVec Ideal S1024x1024 .f32) (x10 : FVec Ideal S1024 .f32) (x11 : FVec Ideal S1024x1024 .f32) (x12 : FVec Ideal S1024 .f32) (x13 : FVec Ideal S1024x1024 .f32) (x14 : FVec Ideal S1024 .f32) (x15 : FVec Ideal S1024x1024 .f32) (x16 : FVec Ideal S1024 .f32) (x17 : FVec Ideal S1024x1024 .f32) (x18 : FVec Ideal S1024 .f32) :
    val_main_v40 (F := Ideal) x0 x1 x2 x3 x4 x5 x6 x7 x8 x9 x10 x11 x12 x13 x14 x15 x16 x17 x18 = cellC x0 x1 x2 (val_main_v0 (F := Ideal) x3 x7 x11 x15) (val_main_v1 (F := Ideal) x5 x9 x13 x17) (val_main_v2 (F := Ideal) x4 x8 x12 x16) (val_main_v3 (F := Ideal) x6 x10 x14 x18) :=
  funext fun i => cell_apply x0 x1 x2 x3 x4 x5 x6 x7 x8 x9 x10 x11 x12 x13 x14 x15 x16 x17 x18 i

theorem hidden_eq (x0 x1 x2 : FVec Ideal S8192x1024 .f32) (x3 : FVec Ideal S1024x1024 .f32) (x4 : FVec Ideal S1024 .f32) (x5 : FVec Ideal S1024x1024 .f32) (x6 : FVec Ideal S1024 .f32) (x7 : FVec Ideal S1024x1024 .f32) (x8 : FVec Ideal S1024 .f32) (x9 : FVec Ideal S1024x1024 .f32) (x10 : FVec Ideal S1024 .f32) (x11 : FVec Ideal S1024x1024 .f32) (x12 : FVec Ideal S1024 .f32) (x13 : FVec Ideal S1024x1024 .f32) (x14 : FVec Ideal S1024 .f32) (x15 : FVec Ideal S1024x1024 .f32) (x16 : FVec Ideal S1024 .f32) (x17 : FVec Ideal S1024x1024 .f32) (x18 : FVec Ideal S1024 .f32) :
    val_main_v42 (F := Ideal) x0 x1 x2 x3 x4 x5 x6 x7 x8 x9 x10 x11 x12 x13 x14 x15 x16 x17 x18 = cellH x0 x1 x2 (val_main_v0 (F := Ideal) x3 x7 x11 x15) (val_main_v1 (F := Ideal) x5 x9 x13 x17) (val_main_v2 (F := Ideal) x4 x8 x12 x16) (val_main_v3 (F := Ideal) x6 x10 x14 x18) :=
  funext fun i => hidden_apply x0 x1 x2 x3 x4 x5 x6 x7 x8 x9 x10 x11 x12 x13 x14 x15 x16 x17 x18 i

end Cert.ReferenceIdeal.Stages

end
-- ==== Proof.lean ====
/-
  One step of an LSTM cell, fused, against its plain reference.

  The fused program stacks the four gate weights of the input side and of the hidden side, transposes each stack,
  lays the two side by side as one `[2048, 4096]` matrix, and adds the two stacked biases into one row; its region
  then walks the `8192` rows in 32 blocks of 256, multiplying each block of `[x | h]` by the fused matrix, adding the
  row, cutting the `4096` pre-activation columns into the four gates and forming the new cell and hidden states.
  The reference forms the pre-activation as `((x·wxᵀ + bx) + h·whᵀ) + bh` over the whole arrays and applies the same
  gates, its logistic function spelt as a quotient.

  On the extended reals the two agree entry by entry: a sum over the `2048` fused contraction indices is the sum of
  its two halves, addition is commutative and associative, narrowing a float format is the identity, and
  `1 / (1 + exp (-z))` is the logistic function. None of this needs the inputs to be finite.

  The frames: each of the three programs runs to its end without a fault and leaves its nineteen argument arrays as
  they were (the fused programs read their staged inputs and write only fresh buffers; the reference is host
  operations into fresh buffers). The idealized kernel is the kernel's own text read at the extended reals, so
  nothing is owed for the idealization.
-/
import proofs.«118844_j80350248173766_2_alg».proof.Defs
import proofs.«118844_j80350248173766_2_alg».proof.Proof.Gen.Kernel
import proofs.«118844_j80350248173766_2_alg».proof.Proof.Gen.KernelIdeal
import proofs.«118844_j80350248173766_2_alg».proof.Proof.Gen.ReferenceIdeal
import proofs.«118844_j80350248173766_2_alg».proof.Proof.Gen.Pre_finite_inputs
import proofs.«118844_j80350248173766_2_alg».proof.Proof.KernelFrame
import proofs.«118844_j80350248173766_2_alg».proof.Proof.KernelValue
import proofs.«118844_j80350248173766_2_alg».proof.Proof.RefStages
import Idealize.ShloMosaic.Adequacy
import Idealize.ShloMosaic.Init

noncomputable section

namespace Cert.Proof

open Idealize.ShloMosaic Idealize.SL.Sem

/-- The printed kernel runs and keeps its arguments. -/
theorem frame_k : Cert.frame_Kernel := fun m ρ _ => Cert.Kernel.FrameProof.frame m ρ

/-- The idealized kernel runs and keeps its arguments. -/
theorem frame_ki : Cert.frame_KernelIdeal := fun m ρ _ => Cert.KernelIdeal.FrameProof.frame m ρ

/-- The reference runs and keeps its arguments: its run, the two results forgotten. -/
theorem frame_ri : Cert.frame_ReferenceIdeal := fun m ρ _ =>
  (θ_run Cert.ReferenceIdeal.defs _ _).mono (fun _ h c => (h c).2.2) (Cert.ReferenceIdeal.Value.run (F := Ideal) m ρ)

/-- No operation was rewritten when the kernel was idealized. -/
theorem preserves : Cert.preserves_Kernel_KernelIdeal := trivial

set_option maxHeartbeats 1000000 in
/-- From memories agreeing on the arguments both programs end with the cell's new hidden state and new cell state
    of those arguments: the fused program by its 32 blocks tiling each result, the reference by its operations read
    entry by entry; the stacked weights and biases are the same arrays on both sides. -/
theorem algebraic : Cert.algebraic_KernelIdeal_ReferenceIdeal := by
  intro m ρ m' ρ' _ hagree
  refine ⟨_, _, Cert.KernelIdeal.ValueProof.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8, a9, a10, a11, a12, a13, a14, a15, a16, a17, a18⟩ := hagree c
    rw [Cert.ReferenceIdeal.Read.val_main_v42_eq, Cert.ReferenceIdeal.Stages.hidden_eq, a0, a1, a2, a3, a4, a5, a6, a7, a8, a9, a10, a11, a12, a13, a14, a15, a16, a17, a18]
    rfl
  · obtain ⟨a0, a1, a2, a3, a4, a5, a6, a7, a8, a9, a10, a11, a12, a13, a14, a15, a16, a17, a18⟩ := hagree c
    rw [Cert.ReferenceIdeal.Read.val_main_v40_eq, Cert.ReferenceIdeal.Stages.cell_eq, a0, a1, a2, a3, a4, a5, a6, a7, a8, a9, a10, a11, a12, a13, a14, a15, a16, a17, a18]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
